-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S128 : Shape := ⟨1, ![128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) (main_arg2 : IVec S128 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x2048 : Shape := ⟨2, ![16384, 2048]⟩
abbrev S128 : Shape := ⟨1, ![128]⟩
abbrev S128x128x2048 : Shape := ⟨3, ![128, 128, 2048]⟩
abbrev S128x128 : Shape := ⟨2, ![128, 128]⟩
abbrev S8x128x2048 : Shape := ⟨3, ![8, 128, 2048]⟩
abbrev S8x128 : Shape := ⟨2, ![8, 128]⟩
abbrev S8x128x512 : Shape := ⟨3, ![8, 128, 512]⟩
abbrev S128x1 : Shape := ⟨2, ![128, 1]⟩
abbrev S1x128 : Shape := ⟨2, ![1, 128]⟩
abbrev S_ : Shape := ⟨0, ![]⟩

abbrev nBuf : Space → Nat
  | .hbm => 33
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S128, .i32⟩
  | .hbm, ⟨3, _⟩ => ⟨S128x128x2048, .f32⟩
  | .hbm, ⟨4, _⟩ => ⟨S128x128x2048, .f32⟩
  | .hbm, ⟨5, _⟩ => ⟨S128x128, .f32⟩
  | .hbm, ⟨6, _⟩ => ⟨S128x1, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S_, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S8x128x2048, .f32⟩
  | .local _ .vmem, ⟨1, _⟩ => ⟨S8x128x2048, .f32⟩
  | .local _ .vmem, ⟨2, _⟩ => ⟨S8x128x2048, .f32⟩
  | .local _ .vmem, ⟨3, _⟩ => ⟨S8x128x2048, .f32⟩
  | .local _ .vmem, ⟨4, _⟩ => ⟨S8x128, .f32⟩
  | .local _ .vmem, ⟨5, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_call0_v0 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_call1_v0 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v1 : BitVec 32 := Scalar.muli c0_i32 c512_i32
  v1
def k0_off1 (c0_i32 : BitVec 32) : Fin 3 → Nat :=
  let c0 : Index := 0#32
  let c0_0 : Index := 0#32
  let c512_i32 : BitVec 32 := 512#32
  let v1 : BitVec 32 := Scalar.muli c0_i32 c512_i32
  let v2 : BitVec 32 := v1
  let v3 : Index := Scalar.indexCast v2
  ![0, 0, v3.toNat]
def k0_mult2 : BitVec 32 :=
  let c1_i32 : BitVec 32 := 1#32
  let c512_i32_5 : BitVec 32 := 512#32
  let v15 : BitVec 32 := Scalar.muli c1_i32 c512_i32_5
  v15
def k0_mult3 : BitVec 32 :=
  let c2_i32 : BitVec 32 := 2#32
  let c512_i32_12 : BitVec 32 := 512#32
  let v29 : BitVec 32 := Scalar.muli c2_i32 c512_i32_12
  v29
def k0_mult4 : BitVec 32 :=
  let c3_i32 : BitVec 32 := 3#32
  let c512_i32_19 : BitVec 32 := 512#32
  let v43 : BitVec 32 := Scalar.muli c3_i32 c512_i32_19
  v43
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x2048_S128x128x2048 : S16384x2048.ShapeCasts S128x128x2048
  h_S8x128x512 : 0 < S8x128x512.numel
  shapeCasts_S8x128x512_S8x128x512 : S8x128x512.ShapeCasts S8x128x512
  reduces_S8x128x512_S8x128 : S8x128x512.Reduces [2] S8x128
  inb_S8x128_S8x128_0_0 : ∀ a, (![0, 0] : Fin 2 → Nat) a + S8x128.size a ≤ S8x128.size a
  h_S8x128 : 0 < S8x128.numel
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  reducesTo_S128x128_S128_d1 : S128x128.ReducesTo [1] S128
  h_S_ : 0 < S_.numel
  bcast_S_S128 : S_.BroadcastsInDim S128 (![] : Fin 0 → Fin S128.rank)
  reducesTo_S128_S_d0 : S128.ReducesTo [0] S_
  hrank0 : 0 < grid0.rank
  k0_mult1_dvd : 512 ∣ k0_mult1.toNat
  k0_off1_inb : ∀ (r : Fin 4), ∀ a, (k0_off1 (BitVec.ofNat 32 r.val)) a + S8x128x512.size a ≤ S8x128x2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S128x128x2048.size a
  hwx0_0 : ∀ i : grid0.Coords, EltTy.bits .f32 = 32 ∨ (Rect.block (s := S128x128x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2048.size a ≤ S128x128x2048.size a
  hwx0_1 : ∀ i : grid0.Coords, EltTy.bits .f32 = 32 ∨ (Rect.block (s := S128x128x2048) S8x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S128x128.size a
  hwx0_2 : ∀ i : grid0.Coords, EltTy.bits .f32 = 32 ∨ (Rect.block (s := S128x128) S8x128.size (cc0_transform_2 i) (hinb0_2 i)).WholeWords (EltTy.packing .f32)

variable [Facts₀]

abbrev win0_0 : Pipeline.Window sig grid0 :=
  Pipeline.Window.ofSpec (Memref.whole main_v0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S128 : Shape := ⟨1, ![128]⟩
abbrev S_ : Shape := ⟨0, ![]⟩
abbrev S16384 : Shape := ⟨1, ![16384]⟩
abbrev S128x128 : Shape := ⟨2, ![128, 128]⟩
abbrev S128x1 : Shape := ⟨2, ![128, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S128, .i32⟩
  | .hbm, ⟨3, _⟩ => ⟨S16384x2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S128x128, .f32⟩
  | .hbm, ⟨12, _⟩ => ⟨S128x1, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_call1_v0 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  reducesTo_S16384x2048_S16384_d1 : S16384x2048.ReducesTo [1] S16384
  h_S_ : 0 < S_.numel
  shapeCasts_S16384_S128x128 : S16384.ShapeCasts S128x128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  reducesTo_S128x128_S128_d1 : S128x128.ReducesTo [1] S128
  bcast_S_S128 : S_.BroadcastsInDim S128 (![] : Fin 0 → Fin S128.rank)
  reducesTo_S128_S_d0 : S128.ReducesTo [0] S_

variable [Facts₀]

class Facts : Prop extends Facts₀ where

variable [Facts]
-- ==== Proof.LibChunkSum.lean ====
/-
  A sum taken in four consecutive chunks.

  A sum over 4·P consecutive indices is the sum of the four partial sums over the chunks [0, P), [P, 2P), [2P, 3P),
  [3P, 4P), added in order. Addition only has to be commutative and associative with a zero, so this holds on the
  extended reals with no finiteness assumed. Also the same with the running sum started from zero, the form an
  accumulator initialised to zero and updated once per chunk leaves.
-/
import Mathlib

namespace Cert.LibChunkSum

open Finset

variable {M : Type*} [AddCommMonoid M]

/-- A sum over `Fin (P + P + P + P)` is the sum of its four consecutive chunks of length `P`. -/
theorem sum_four_chunks (P : ℕ) (f : ℕ → M) :
    ∑ n : Fin (P + P + P + P), f n.val
      = ((∑ k : Fin P, f k.val + ∑ k : Fin P, f (P + k.val)) + ∑ k : Fin P, f (P + P + k.val))
          + ∑ k : Fin P, f (P + P + P + k.val) := by
  rw [Fin.sum_univ_add, Fin.sum_univ_add, Fin.sum_univ_add]
  simp only [Fin.val_castAdd, Fin.val_natAdd]

/-- The same, with the running sum started from zero: `(((0 + s₀) + s₁) + s₂) + s₃`. -/
theorem sum_four_chunks_from_zero (P : ℕ) (f : ℕ → M) :
    (((0 + ∑ k : Fin P, f k.val) + ∑ k : Fin P, f (P + k.val)) + ∑ k : Fin P, f (P + P + k.val))
        + ∑ k : Fin P, f (P + P + P + k.val)
      = ∑ n : Fin (P + P + P + P), f n.val := by
  rw [zero_add, sum_four_chunks]

end Cert.LibChunkSum
-- ==== Proof.DistSpec.lean ====
/-
  The pairwise distance of corresponding rows of two matrices, as one function of the matrices.

  The two inputs are 16384 × 2048 matrices A and B. Row R = 128·i + j of each is paired with the entry (i, j) of a
  128 × 128 matrix, and that entry is the Euclidean norm of the row of A − B + ε:

      dist A B (i, j) = √( Σ_{k < 2048} (A[R, k] − B[R, k] + ε)² ),   R = 128·i + j,

  ε the number the f32 pattern 0x358637BD denotes. Everything is read on the extended reals; the sum has no
  cancellation in it (every term is a square), and the only law used below is that a sum may be taken in chunks.
-/
import Idealize.ShloMosaic.PureOps.Ideal
import Idealize.ShloMosaic.PureOps.Ideal.Laws
import Idealize.ShloMosaic.Lib.ValueIdx
import proofs.«100390_j9337258902044_2_alg».proof.Proof.LibChunkSum

noncomputable section

namespace Cert.Dist

open Idealize.ShloMosaic Idealize.ShloMosaic.ValueIdx

/-- The shift added to every difference: the number the f32 pattern nearest 10⁻⁶ denotes. -/
abbrev eps : EReal := Ideal.ofBits .f32 0x358637BD#32

/-- One term of a squared distance: `(a − b + ε)²`. -/
def sq (a b : EReal) : EReal := (a - b + eps) * (a - b + eps)

/-- The flat row `128·i + j` that the pair `(i, j)` names. -/
def row (i j : Fin 128) : Fin 16384 := ⟨i.val * 128 + j.val, by have := i.isLt; have := j.isLt; omega⟩

/-- Entry `(i, j)` of the distance matrix: the norm of row `128·i + j` of `A − B + ε`. -/
def distAt (A B : (⟨2, ![16384, 2048]⟩ : Shape).Idx → EReal) (i j : Fin 128) : EReal :=
  Ideal.sqrt (∑ k : Fin 2048, sq (A (ix2 (row i j) k)) (B (ix2 (row i j) k)))

/-- The distance matrix. -/
def dist (A B : (⟨2, ![16384, 2048]⟩ : Shape).Idx → EReal) : (⟨2, ![128, 128]⟩ : Shape).Idx → EReal :=
  fun p => distAt A B (p 0) (p 1)

theorem dist_apply (A B : (⟨2, ![16384, 2048]⟩ : Shape).Idx → EReal) (i j : Fin 128) :
    dist A B (ix2 i j) = distAt A B i j := rfl

/-- The sum of a row's 2048 squares taken 512 lanes at a time, the four partial sums added in order onto the number the
    all-zero f32 pattern denotes: the same sum. -/
theorem chunked_sum (f : ℕ → EReal) :
    (((Ideal.ofBits .f32 0x00000000#32 + ∑ k : Fin 512, f k.val) + ∑ k : Fin 512, f (512 + k.val))
        + ∑ k : Fin 512, f (1024 + k.val)) + ∑ k : Fin 512, f (1536 + k.val)
      = ∑ k : Fin 2048, f k.val := by
  rw [Ideal.ofBits_zero_f32]
  exact Cert.LibChunkSum.sum_four_chunks_from_zero 512 f

end Cert.Dist

end
-- ==== Proof.KernelRow.lean ====
/-
  What the kernel body computes for one (row-group, row) entry, at the extended reals.

  The body reads its two 8 × 128 × 2048 input blocks 512 lanes at a time. For each chunk it forms (a − b + ε)², sums the
  512 lanes, and adds the partial sum onto an accumulator that starts at zero; the stored value is the square root of the
  accumulator. Read at entry (b, r) this is

      √( (((0 + Σ_{k<512} s(k)) + Σ_{k<512} s(512 + k)) + Σ_{k<512} s(1024 + k)) + Σ_{k<512} s(1536 + k) ),
      s(n) = (x₀[b, r, n] − x₁[b, r, n] + ε)²,

  which is √ of the whole row's sum, because a sum may be taken in chunks.
-/
import proofs.«100390_j9337258902044_2_alg».proof.Proof.Gen.KernelIdeal.Skeleton
import proofs.«100390_j9337258902044_2_alg».proof.Proof.DistSpec
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx
open Cert.Dist

/-- One chunk: the lane sum of `(u − v + ε)²` over the 512 lanes of an 8 × 128 × 512 pair, read at `(b, r)`. -/
theorem chunk_apply (u v : FVec Ideal S8x128x512 .f32) (h : S8x128x512.Reduces [2] S8x128) (hφ : FKind.Formats .f32)
    (hacc : (0x00000000#32 : BitVec 32) = FKind.add.neutral .f32 hφ) (b : Fin 8) (r : Fin 128) :
    multiReduction .add [2] S8x128
        (mulf (addf (subf u v) (broadcast S8x128x512 (Scalar.ofBits .f32 0x358637BD#32)))
          (addf (subf u v) (broadcast S8x128x512 (Scalar.ofBits .f32 0x358637BD#32))))
        0x00000000#32 h hφ hacc (ix2 b r)
      = ∑ k : Fin 512, sq (u (ix3 b r k)) (v (ix3 b r k)) := by
  refine (Ideal.multiReduction_add_single _ 0x00000000#32 h hφ hacc (ix2 b r)).trans ?_
  refine Finset.sum_congr rfl fun k _ => ?_
  have e : h.lift (ix2 b r) k = ix3 b r k :=
    funext fun a => Fin.ext (by match a with | ⟨0, _⟩ => rfl | ⟨1, _⟩ => rfl | ⟨2, _⟩ => rfl)
  rw [e]
  rfl

/-- The stored value at `(b, r)`, from the eight loaded chunks: the square root of the four chunk sums added in order
    from zero. -/
theorem stored_apply (v4 v7 v18 v21 v32 v35 v46 v49 : Vec Ideal S8x128x512 .f32) (b : Fin 8) (r : Fin 128) :
    k0_pay1 (F := Ideal) (k0_pay2 v4 v7 v18 v21) (k0_pay3 v32) v35 v46 v49 (ix2 b r)
      = Ideal.sqrt ((((Ideal.ofBits .f32 0x00000000#32 + ∑ k : Fin 512, sq (v4 (ix3 b r k)) (v7 (ix3 b r k)))
          + ∑ k : Fin 512, sq (v18 (ix3 b r k)) (v21 (ix3 b r k)))
          + ∑ k : Fin 512, sq (v32 (ix3 b r k)) (v35 (ix3 b r k)))
          + ∑ k : Fin 512, sq (v46 (ix3 b r k)) (v49 (ix3 b r k))) := by
  unfold k0_pay1 k0_pay2 k0_pay3
  simp only [shapeCast_self]
  rw [← chunk_apply v4 v7 Facts₀.reduces_S8x128x512_S8x128 (.inl rfl) rfl b r,
    ← chunk_apply v18 v21 Facts₀.reduces_S8x128x512_S8x128 (.inl rfl) rfl b r,
    ← chunk_apply v32 v35 Facts₀.reduces_S8x128x512_S8x128 (.inl rfl) rfl b r,
    ← chunk_apply v46 v49 Facts₀.reduces_S8x128x512_S8x128 (.inl rfl) rfl b r]
  rfl

/-- A chunk of a block read at an index: lane `k` of the chunk at lane offset `o` is lane `o + k` of the block. -/
theorem ld_chunk (x : Vec Ideal S8x128x2048 .f32) (off : Fin 3 → ℕ) (inb : ∀ a, off a + S8x128x512.size a ≤ S8x128x2048.size a)
    (o : ℕ) (hoff : off = ![0, 0, o]) (ho : o + 512 ≤ 2048) (b : Fin 8) (r : Fin 128) (k : Fin 512) :
    View.ld x (Rect.unit (s := S8x128x2048) off S8x128x512.size inb) (ix3 b r k)
      = x (ix3 b r ⟨o + k.val, by have := k.isLt; omega⟩) := by
  subst hoff
  refine congrArg x (funext fun a => Fin.ext ?_)
  match a with
  | ⟨0, _⟩ => show 0 + 1 * b.val = b.val; omega
  | ⟨1, _⟩ => show 0 + 1 * r.val = r.val; omega
  | ⟨2, _⟩ => show o + 1 * k.val = o + k.val; omega

end Cert.KernelIdeal.Row

end
-- ==== Proof.KernelBlock.lean ====
/-
  What one grid point leaves in the output block, entry by entry.

  At a grid point the body holds an 8 × 128 × 2048 block x₀ of the first input and the matching block x₁ of the second,
  and stores one 8 × 128 block. Entry (b, r) of the stored block is the norm of row (b, r) of x₀ − x₁ + ε over all 2048
  lanes: the body's four 512-lane partial sums, added from zero, are the whole row's sum.
-/
import proofs.«100390_j9337258902044_2_alg».proof.Proof.Gen.KernelIdeal.Frame
import proofs.«100390_j9337258902044_2_alg».proof.Proof.KernelRow
import Idealize.ShloMosaic.Lib.Pipeline.Value
import Idealize.ShloMosaic.Lib.Tactic

noncomputable section

namespace Cert.KernelIdeal.Row

open Cert.KernelIdeal Cert.KernelIdeal.Gen Idealize.ShloMosaic Idealize.ShloMosaic.TcCoe Idealize.ShloMosaic.ValueIdx
open Idealize.SL.Sem
open Cert.Dist

theorem hz : (![0, 0] : Fin 2 → Nat) = fun _ => 0 := funext fun a => by fin_cases a <;> rfl

/-- Row `(b, r)` of a block pair as a function of the lane number (zero past the last lane): the summand of the row's
    squared distance. -/
def rowFn (x0 x1 : Vec Ideal S8x128x2048 .f32) (b : Fin 8) (r : Fin 128) : ℕ → EReal :=
  fun n => if h : n < 2048 then sq (x0 (ix3 b r ⟨n, h⟩)) (x1 (ix3 b r ⟨n, h⟩)) else 0

theorem rowFn_lt (x0 x1 : Vec Ideal S8x128x2048 .f32) (b : Fin 8) (r : Fin 128) (n : ℕ) (h : n < 2048) :
    rowFn x0 x1 b r n = sq (x0 (ix3 b r ⟨n, h⟩)) (x1 (ix3 b r ⟨n, h⟩)) := dif_pos h

/-- A chunk's lane sum, read through the block: the row function summed over the chunk's lanes. -/
theorem chunk_sum (x0 x1 : Vec Ideal S8x128x2048 .f32) (b : Fin 8) (r : Fin 128) (o : ℕ) (ho : o + 512 ≤ 2048)
    (off : Fin 3 → ℕ) (inb : ∀ a, off a + S8x128x512.size a ≤ S8x128x2048.size a) (hoff : off = ![0, 0, o]) :
    ∑ k : Fin 512, sq (View.ld x0 (Rect.unit (s := S8x128x2048) off S8x128x512.size inb) (ix3 b r k))
        (View.ld x1 (Rect.unit (s := S8x128x2048) off S8x128x512.size inb) (ix3 b r k))
      = ∑ k : Fin 512, rowFn x0 x1 b r (o + k.val) :=
  Finset.sum_congr rfl fun k _ => by
    rw [ld_chunk x0 off inb o hoff ho, ld_chunk x1 off inb o hoff ho, rowFn_lt]

/-- The body's stored block, from the two input blocks: the one covering store's value over the eight loaded chunks. -/
theorem out_eq {F : FTy → Type} [FloatOps F] (c : Dev nD) (i : grid0.Coords)
    (a1 : Memref sig .tc .vmem S8x128x2048 .f32) (h1 : a1.IsWhole)
    (a2 : Memref sig .tc .vmem S8x128x2048 .f32) (h2 : a2.IsWhole) (a3 : Memref sig .tc .vmem S8x128 .f32) (h3 : a3.IsWhole)
    (x0 x1 : Vec F S8x128x2048 .f32) :
    out0_A_2 c i a1 h1 a2 h2 a3 h3 x0 x1
      = k0_pay1
          (k0_pay2 (View.ld x0 (Rect.unit (s := S8x128x2048) (k0_off1 0#32) S8x128x512.size (Facts₀.k0_off1_inb 0)))
            (View.ld x1 (Rect.unit (s := S8x128x2048) (k0_off1 0#32) S8x128x512.size (Facts₀.k0_off1_inb 0)))
            (View.ld x0 (Rect.unit (s := S8x128x2048) (k0_off1 1#32) S8x128x512.size (Facts₀.k0_off1_inb 1)))
            (View.ld x1 (Rect.unit (s := S8x128x2048) (k0_off1 1#32) S8x128x512.size (Facts₀.k0_off1_inb 1))))
          (k0_pay3 (View.ld x0 (Rect.unit (s := S8x128x2048) (k0_off1 2#32) S8x128x512.size (Facts₀.k0_off1_inb 2))))
          (View.ld x1 (Rect.unit (s := S8x128x2048) (k0_off1 2#32) S8x128x512.size (Facts₀.k0_off1_inb 2)))
          (View.ld x0 (Rect.unit (s := S8x128x2048) (k0_off1 3#32) S8x128x512.size (Facts₀.k0_off1_inb 3)))
          (View.ld x1 (Rect.unit (s := S8x128x2048) (k0_off1 3#32) S8x128x512.size (Facts₀.k0_off1_inb 3))) := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread]
  rfl

/-- Entry `(b, r)` of the stored block: the norm of row `(b, r)` of `x₀ − x₁ + ε`. -/
theorem out_apply (c : Dev nD) (i : grid0.Coords)
    (a1 : Memref sig .tc .vmem S8x128x2048 .f32) (h1 : a1.IsWhole)
    (a2 : Memref sig .tc .vmem S8x128x2048 .f32) (h2 : a2.IsWhole) (a3 : Memref sig .tc .vmem S8x128 .f32) (h3 : a3.IsWhole)
    (x0 x1 : Vec Ideal S8x128x2048 .f32) (b : Fin 8) (r : Fin 128) :
    out0_A_2 (F := Ideal) c i a1 h1 a2 h2 a3 h3 x0 x1 (ix2 b r)
      = Ideal.sqrt (∑ n : Fin 2048, sq (x0 (ix3 b r n)) (x1 (ix3 b r n))) := by
  rw [out_eq, stored_apply]
  refine congrArg Ideal.sqrt ?_
  refine Eq.trans (congrArg₂ (· + ·) (congrArg₂ (· + ·) (congrArg₂ (· + ·)
    (congrArg (Ideal.ofBits .f32 0x00000000#32 + ·) (chunk_sum x0 x1 b r 0 (by norm_num) _ _ rfl))
    (chunk_sum x0 x1 b r 512 (by norm_num) _ _ rfl))
    (chunk_sum x0 x1 b r 1024 (by norm_num) _ _ rfl))
    (chunk_sum x0 x1 b r 1536 (by norm_num) _ _ rfl)) ?_
  simp only [Nat.zero_add]
  refine (chunked_sum (rowFn x0 x1 b r)).trans ?_
  exact Finset.sum_congr rfl fun n _ => rowFn_lt x0 x1 b r n.val n.isLt

end Cert.KernelIdeal.Row

end
-- ==== Proof.LibRowsFlatten.lean ====
/-
  Rows flattened and unflattened. An [a, b, c] array cast to [N, c] with N = a · b keeps the row-major order, so
  row R = i · b + j of the flat array is row (i, j) of the cube, entry by entry; and the cast back reads the flat
  array at that row.
-/
import Idealize.ShloMosaic.Lib.Pipeline.Value
import Idealize.ShloMosaic.Lib.ValueIdx

namespace Cert.LibRowsFlatten

open Idealize.ShloMosaic Idealize.ShloMosaic.ValueIdx

variable {α : Type}

/-- An `[a, b, c]` array cast to `[N, c]` reads, at `(R, k)` with `R = i · b + j`, the operand at `(i, j, k)`. -/
theorem shapeCast_flatten_apply {a b c N : ℕ} (x : (⟨3, ![a, b, c]⟩ : Shape).Idx → α)
    (h : (⟨3, ![a, b, c]⟩ : Shape).ShapeCasts ⟨2, ![N, c]⟩) (i : Fin a) (j : Fin b) (k : Fin c) (R : Fin N)
    (hR : R.val = i.val * b + j.val) :
    shapeCast ⟨2, ![N, c]⟩ x h (ix2 R k) = x (ix3 i j k) :=
  shapeCast_apply x h _ _ (by
    rw [Shape.rowMajor_val_three, Shape.rowMajor_val_two]
    show (i.val * b + j.val) * c + k.val = R.val * c + k.val
    rw [hR])

/-- An `[N, c]` array cast to `[a, b, c]` reads, at `(i, j, k)`, the operand at `(R, k)` with `R = i · b + j`. -/
theorem shapeCast_unflatten_apply {a b c N : ℕ} (y : (⟨2, ![N, c]⟩ : Shape).Idx → α)
    (h : (⟨2, ![N, c]⟩ : Shape).ShapeCasts ⟨3, ![a, b, c]⟩) (i : Fin a) (j : Fin b) (k : Fin c) (R : Fin N)
    (hR : R.val = i.val * b + j.val) :
    shapeCast ⟨3, ![a, b, c]⟩ y h (ix3 i j k) = y (ix2 R k) :=
  shapeCast_apply y h _ _ (by
    rw [Shape.rowMajor_val_three, Shape.rowMajor_val_two]
    show R.val * c + k.val = (i.val * b + j.val) * c + k.val
    rw [hR])

end Cert.LibRowsFlatten
-- ==== Proof.KernelArray.lean ====
/-
  From the blocks the grid points write to the whole distance matrix.

  The kernel's two operands are the inputs viewed as 128 × 128 × 2048 cubes: cube entry (i, j, k) is entry (128·i + j, k) of
  the 16384 × 2048 matrix. Grid point t holds row-groups 8t … 8t + 7 of both cubes and writes rows 8t … 8t + 7 of the
  128 × 128 result. So entry (b, r) of what point t writes is the distance of flat row 128·(8t + b) + r, which is entry
  (8t + b, r) of the distance matrix: every point writes its block of ONE matrix, the sixteen blocks tile it, and the
  result array ends holding that matrix.
-/
import proofs.«100390_j9337258902044_2_alg».proof.Proof.Gen.KernelIdeal.Frame
import proofs.«100390_j9337258902044_2_alg».proof.Proof.KernelBlock
import proofs.«100390_j9337258902044_2_alg».proof.Proof.LibRowsFlatten
import Idealize.ShloMosaic.Lib.Pipeline.Value
import Idealize.ShloMosaic.Lib.StableHlo.Run
import Idealize.ShloMosaic.Lib.Tactic

noncomputable section

namespace Cert.KernelIdeal.Row

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Dist

variable (m : (ℓ : Loc nD τ sig) → Buf (Elt Ideal) ℓ)

/-- The first operand as the region finds it: the first input viewed as a cube. -/
theorem V_v0 (c : Dev nD) :
    (V m c main_v0 : S128x128x2048.Idx → EReal)
      = shapeCast S128x128x2048 (m ((c : Thread nD τ).loc main_arg0)) Facts₀.shapeCasts_S16384x2048_S128x128x2048 := by
  show StableHlo.after hostOps0 (fun b => m (c, b)) (Proc.devRef .tc main_v0) = _
  after_results
  rfl

/-- The second operand as the region finds it: the second input viewed as a cube. -/
theorem V_v1 (c : Dev nD) :
    (V m c main_v1 : S128x128x2048.Idx → EReal)
      = shapeCast S128x128x2048 (m ((c : Thread nD τ).loc main_arg1)) Facts₀.shapeCasts_S16384x2048_S128x128x2048 := by
  show StableHlo.after hostOps0 (fun b => m (c, b)) (Proc.devRef .tc main_v1) = _
  after_results
  rfl

/-- The printed index maps over the sixteen grid points: both input windows sit on the output window's row-group and on
    block 0 of their other axes; the output window's column block is 0 and its row-group is at most 15. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (1 : Fin 2) = 0 ∧ win0_2.index t (0 : Fin 2) ≤ 15 :=
  (by decide +kernel : ∀ t : Fin grid0.N, _)

/-- Every row-group is some point's. -/
theorem idx_onto : ∀ q : Fin 16, ∃ t : Fin cfg0.N, win0_2.index t = ![q.val, 0] :=
  (by decide +kernel : ∀ q : Fin 16, ∃ t : Fin grid0.N, win0_2.index t = ![q.val, 0])

/-- Row `b` of point `t`'s row-group, as a row of the 128 × 128 result. -/
def grp (t : Fin cfg0.N) (b : Fin 8) : Fin 128 :=
  ⟨win0_2.index t (0 : Fin 2) * 8 + b.val, by have := (idx_facts t).2.2.2.2.2.2.2; have := b.isLt; omega⟩

/-- The first input's block at point `t`, read at `(b, r, n)`: the first input at flat row `128·(8t + b) + r`, lane `n`. -/
theorem iblk0_apply (c : Dev nD) (t : Fin cfg0.N) (b : Fin 8) (r : Fin 128) (n : Fin 2048) :
    iblk m c 0 t (ix3 b r n) = m ((c : Thread nD τ).loc main_arg0) (ix2 (row (grp t b) r) n) := by
  obtain ⟨e0, e1, e2, -⟩ := idx_facts t
  show V m c main_v0 (((cfg0.win 0).blk t).view.emb (ix3 b r n)) = _
  rw [V_v0]
  have he : ((cfg0.win 0).blk t).view.emb (ix3 b r n) = ix3 (grp t b) r n := by
    funext a; apply Fin.ext
    match a with
    | ⟨0, _⟩ => show win0_0.index t (0 : Fin 3) * 8 + 1 * b.val = win0_2.index t (0 : Fin 2) * 8 + b.val; omega
    | ⟨1, _⟩ => show win0_0.index t (1 : Fin 3) * 128 + 1 * r.val = r.val; omega
    | ⟨2, _⟩ => show win0_0.index t (2 : Fin 3) * 2048 + 1 * n.val = n.val; omega
  rw [he]
  exact Cert.LibRowsFlatten.shapeCast_unflatten_apply _ _ (grp t b) r n (row (grp t b) r) rfl

/-- The second input's block at point `t`, likewise. -/
theorem iblk1_apply (c : Dev nD) (t : Fin cfg0.N) (b : Fin 8) (r : Fin 128) (n : Fin 2048) :
    iblk m c 1 t (ix3 b r n) = m ((c : Thread nD τ).loc main_arg1) (ix2 (row (grp t b) r) n) := by
  obtain ⟨-, -, -, e0, e1, e2, -⟩ := idx_facts t
  show V m c main_v1 (((cfg0.win 1).blk t).view.emb (ix3 b r n)) = _
  rw [V_v1]
  have he : ((cfg0.win 1).blk t).view.emb (ix3 b r n) = ix3 (grp t b) r n := by
    funext a; apply Fin.ext
    match a with
    | ⟨0, _⟩ => show win0_1.index t (0 : Fin 3) * 8 + 1 * b.val = win0_2.index t (0 : Fin 2) * 8 + b.val; omega
    | ⟨1, _⟩ => show win0_1.index t (1 : Fin 3) * 128 + 1 * r.val = r.val; omega
    | ⟨2, _⟩ => show win0_1.index t (2 : Fin 3) * 2048 + 1 * n.val = n.val; omega
  rw [he]
  exact Cert.LibRowsFlatten.shapeCast_unflatten_apply _ _ (grp t b) r n (row (grp t b) r) rfl

/-- The result array's contents: the distance matrix of the two inputs as launched. -/
abbrev G (c : Dev nD) : Buf (Elt Ideal) ((c : Thread nD τ).loc main_v2) :=
  dist (m ((c : Thread nD τ).loc main_arg0)) (m ((c : Thread nD τ).loc main_arg1))

/-- What point `t` writes back is block `t` of the distance matrix. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold outsAt0
  funext j
  obtain ⟨b, r, hbr⟩ : ∃ (b : Fin 8) (r : Fin 128), (j : S8x128.Idx) = ix2 b r := ⟨j 0, j 1, eq_ix2 j⟩
  have hb : (j 0).val = b.val := congrArg (fun q : S8x128.Idx => (q 0).val) hbr
  have hr : (j 1).val = r.val := congrArg (fun q : S8x128.Idx => (q 1).val) hbr
  obtain ⟨-, -, -, -, -, -, e6, -⟩ := idx_facts t
  show out0_A_2 c (grid0.coords t) (ms0_0 t) (hs0_0 t) (ms0_1 t) (hs0_1 t) (ms0_2 t) (hs0_2 t) (iblk m c 0 t) (iblk m c 1 t) j
    = dist (m ((c : Thread nD τ).loc main_arg0)) (m ((c : Thread nD τ).loc main_arg1)) (((cfg0.win 2).blk t).view.emb j)
  have hemb : ((cfg0.win 2).blk t).view.emb j = ix2 (grp t b) r := by
    funext a; apply Fin.ext
    match a with
    | ⟨0, _⟩ => show win0_2.index t (0 : Fin 2) * 8 + 1 * (j 0).val = win0_2.index t (0 : Fin 2) * 8 + b.val; omega
    | ⟨1, _⟩ => show win0_2.index t (1 : Fin 2) * 128 + 1 * (j 1).val = r.val; omega
  rw [hemb]
  refine (congrArg (out0_A_2 c (grid0.coords t) (ms0_0 t) (hs0_0 t) (ms0_1 t) (hs0_1 t) (ms0_2 t) (hs0_2 t) (iblk m c 0 t) (iblk m c 1 t)) hbr).trans ?_
  refine (out_apply c (grid0.coords t) (ms0_0 t) (hs0_0 t) (ms0_1 t) (hs0_1 t) (ms0_2 t) (hs0_2 t) (iblk m c 0 t) (iblk m c 1 t) b r).trans ?_
  show _ = distAt _ _ (grp t b) r
  unfold distAt
  refine congrArg Ideal.sqrt (Finset.sum_congr rfl fun n _ => ?_)
  rw [iblk0_apply, iblk1_apply]

/-- An index of the result is in point `t`'s block iff each coordinate is in the block's range. -/
theorem mem_blk (t : Fin cfg0.N) (i : S128x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The result array after the run is the distance matrix: row `i` is in the block of the point whose row-group is `i / 8`. -/
theorem final (c : Dev nD) : (dats m 0 c).arrAt 2 cfg0.N = G m c :=
  (dats m 0 c).arrAt_eq_of_cover 2 (G m c) (fun t _ => flushed_eq m c t) fun i => by
    have hi0 : (i 0).val < 128 := (i 0).isLt
    have hi1 : (i 1).val < 128 := (i 1).isLt
    obtain ⟨t, ht⟩ := idx_onto ⟨(i 0).val / 8, by omega⟩
    have q0 : win0_2.index t (0 : Fin 2) = (i 0).val / 8 := congrFun ht 0
    have q1 : win0_2.index t (1 : Fin 2) = 0 := congrFun ht 1
    refine ⟨t, flush0_2 t, ?_⟩
    rw [mem_blk]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 128 ≤ (i 1).val ∧ (i 1).val < win0_2.index t (1 : Fin 2) * 128 + 128; omega

end Cert.KernelIdeal.Row

end
-- ==== Proof.Loss.lean ====
/-
  The triplet margin loss of a distance matrix, as one function of the labels and the matrix.

  From the 128 labels a 128 × 128 mask is formed: mask (i, j) says label i = label j. For each row i the hardest positive
  is the largest distance among the masked entries (the others replaced by −M, M the largest finite f32), the hardest
  negative the smallest distance among the unmasked entries (the masked ones replaced by +M). The loss is the mean over the
  128 rows of max(positive − negative + margin, 0).

  Both programs apply exactly these host operations, in this order and with these literals, to their distance matrix; so
  once the two distance matrices are known to be one matrix, nothing about the loss itself has to be opened.
-/
import Idealize.ShloMosaic.PureOps

noncomputable section

namespace Cert.Loss

open Idealize.ShloMosaic

abbrev V128 : Shape := ⟨1, ![128]⟩
abbrev M128 : Shape := ⟨2, ![128, 128]⟩
abbrev C128 : Shape := ⟨2, ![128, 1]⟩
abbrev R128 : Shape := ⟨2, ![1, 128]⟩
abbrev S0 : Shape := ⟨0, ![]⟩

/-- The relations between the shapes that the loss's operations take as evidence. -/
structure ShapeFacts : Prop where
  col : V128.BroadcastsInDim C128 (![0] : Fin 1 → Fin C128.rank)
  line : V128.BroadcastsInDim R128 (![1] : Fin 1 → Fin R128.rank)
  colM : C128.BroadcastsInDim M128 (![0, 1] : Fin 2 → Fin M128.rank)
  lineM : R128.BroadcastsInDim M128 (![0, 1] : Fin 2 → Fin M128.rank)
  splatM : S0.BroadcastsInDim M128 (![] : Fin 0 → Fin M128.rank)
  rows : M128.ReducesTo [1] V128
  pos : 0 < S0.numel
  splatV : S0.BroadcastsInDim V128 (![] : Fin 0 → Fin V128.rank)
  all : V128.ReducesTo [0] S0

variable {F : FTy → Type} [FloatOps F]

/-- The same-label mask: entry `(i, j)` is 1 iff label `i` equals label `j`. -/
def mask (h : ShapeFacts) (tg : (⟨V128, .i32⟩ : BufTy).Contents (Elt F)) : (⟨M128, .i1⟩ : BufTy).Contents (Elt F) :=
  cmpi .eq (broadcastInDim M128 ![0, 1] h.colM (broadcastInDim C128 ![0] h.col tg))
    (broadcastInDim M128 ![0, 1] h.lineM (broadcastInDim R128 ![1] h.line tg))

/-- The loss of the distance matrix `d` under the labels `tg`. -/
def loss (h : ShapeFacts) (tg : (⟨V128, .i32⟩ : BufTy).Contents (Elt F)) (d : (⟨M128, .f32⟩ : BufTy).Contents (Elt F)) :
    (⟨S0, .f32⟩ : BufTy).Contents (Elt F) :=
  Host.divf
    (Host.reduceAdd
      (maximumf
        (addf
          (subf
            (Host.reduce FloatOps.maximumf
              (select (mask h tg) d (broadcastInDim M128 ![] h.splatM (Host.negf (constant S0 .f32 0x7F7FFFFF#32))))
              (constant S0 .f32 0xFF800000#32) h.rows h.pos)
            (Host.reduce FloatOps.minimumf
              (select (mask h tg) (broadcastInDim M128 ![] h.splatM (constant S0 .f32 0x7F7FFFFF#32)) d)
              (constant S0 .f32 0x7F800000#32) h.rows h.pos))
          (broadcastInDim V128 ![] h.splatV (constant S0 .f32 0x3E99999A#32)))
        (broadcastInDim V128 ![] h.splatV (constant S0 .f32 0x00000000#32)))
      (constant S0 .f32 0x00000000#32) h.all h.pos)
    (constant S0 .f32 0x43000000#32)

end Cert.Loss

end
-- ==== Proof.KernelLoss.lean ====
/-
  The kernel's result: the loss of the distance matrix.

  After the region the result array holds the distance matrix of the two inputs; the host operations that follow read that
  array and the labels, and nothing else that the region or an earlier host line wrote. Their composed value is the loss
  of that matrix under the labels as launched.
-/
import proofs.«100390_j9337258902044_2_alg».proof.Proof.Gen.KernelIdeal.Frame
import proofs.«100390_j9337258902044_2_alg».proof.Proof.KernelArray
import proofs.«100390_j9337258902044_2_alg».proof.Proof.Loss
import Idealize.ShloMosaic.Lib.Pipeline.Value
import Idealize.ShloMosaic.Lib.StableHlo.Run
import Idealize.ShloMosaic.Lib.Tactic

noncomputable section

namespace Cert.KernelIdeal.Row

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Dist

variable (m : (ℓ : Loc nD τ sig) → Buf (Elt Ideal) ℓ) (ρ : Dev nD → PrngReg)

/-- The shape relations the loss's operations take, as this program states them. -/
theorem shapeFacts : Cert.Loss.ShapeFacts :=
  ⟨Facts₀.bcast_S128_S128x1_0, Facts₀.bcast_S128_S1x128_1, Facts₀.bcast_S128x1_S128x128_0_1, Facts₀.bcast_S1x128_S128x128_0_1,
    Facts₀.bcast_S_S128x128, Facts₀.reducesTo_S128x128_S128_d1, Facts₀.h_S_, Facts₀.bcast_S_S128, Facts₀.reducesTo_S128_S_d0⟩

/-- The value the host operations after the region leave in the result: the loss of the distance matrix. -/
theorem result_eq (c : Dev nD) :
    Pipeline.afterTail₀ cfgs (dats m) 0 (V0 m) [hostOps1, hostOps1_1, hostOps1_2, hostOps1_3, hostOps1_4] c main_v19
      = Cert.Loss.loss (F := Ideal) shapeFacts (m ((c : Thread nD τ).loc main_arg2))
          (dist (m ((c : Thread nD τ).loc main_arg0)) (m ((c : Thread nD τ).loc main_arg1))) := by
  unfold Pipeline.afterTail₀
  simp only [hostOps1, hostOps1_1, hostOps1_2, hostOps1_3, hostOps1_4, List.flatten_cons, List.flatten_nil, List.append_nil,
    List.cons_append, List.nil_append]
  generalize hW : Pipeline.withArrays (cfgs 0).spec c (V0 m c) (fun w => (dats m 0 c).arrAt w (cfgs 0).N) = W
  have hd : W (Proc.devRef .tc main_v2) = G m c := by
    rw [← hW]
    exact (Pipeline.withArrays_arr spec0 launch0.win.arr_inj c _ _ 2).trans (final m c)
  have hl : W (Proc.devRef .tc main_arg2) = m ((c : Thread nD τ).loc main_arg2) := by
    rw [← hW]
    exact (Pipeline.withArrays_of_ne _ c (V0 m c) _ main_arg2 (by exact (by decide : ∀ w, Pipeline.arrRef spec0 w ≠ main_arg2))).trans
      (V_main_arg2 m c)
  after_results_simp
  rw [hd, hl]
  rfl

/-- The kernel's run, read: every execution terminates with the result at the loss of the distance matrix of the inputs as
    launched, and the three argument arrays unchanged. -/
theorem run : θ_run defs (onTc (τ := τ) (main (F := Ideal))) ⟨m, fun _ => 0, ρ⟩ fun r => ∀ c : Dev nD,
      r.2.mem ((c : Thread nD τ).loc main_v19)
        = Cert.Loss.loss (F := Ideal) shapeFacts (m ((c : Thread nD τ).loc main_arg2))
            (dist (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Row

end
-- ==== Proof.RefLoss.lean ====
/-
  The reference's result: the loss of the same distance matrix.

  The reference subtracts the two 16384 × 2048 inputs, adds ε, squares, sums each row's 2048 lanes onto zero, takes the
  square root, and views the 16384 results as a 128 × 128 matrix: entry (i, j) is the result of flat row 128·i + j. That
  is the distance matrix, entry by entry. The host operations after it are the loss.
-/
import proofs.«100390_j9337258902044_2_alg».proof.Proof.Gen.ReferenceIdeal.Read
import proofs.«100390_j9337258902044_2_alg».proof.Proof.DistSpec
import proofs.«100390_j9337258902044_2_alg».proof.Proof.Loss
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Dist

/-- The shape relations the loss's operations take, as this program states them. -/
theorem shapeFacts : Cert.Loss.ShapeFacts :=
  ⟨Facts₀.bcast_S128_S128x1_0, Facts₀.bcast_S128_S1x128_1, Facts₀.bcast_S128x1_S128x128_0_1, Facts₀.bcast_S1x128_S128x128_0_1,
    Facts₀.bcast_S_S128x128, Facts₀.reducesTo_S128x128_S128_d1, Facts₀.h_S_, Facts₀.bcast_S_S128, Facts₀.reducesTo_S128_S_d0⟩

/-- The reference's 128 × 128 matrix is the distance matrix of its two inputs. -/
theorem dist_eq (x0 x1 : (⟨S16384x2048, .f32⟩ : BufTy).Contents (Elt Ideal)) :
    val_main_v6 (F := Ideal) x0 x1 = dist x0 x1 := by
  funext p
  obtain ⟨i, j, rfl⟩ : ∃ (i j : Fin 128), p = ix2 i j := ⟨p 0, p 1, eq_ix2 p⟩
  rw [val_main_v6_apply, val_main_v5_apply, val_main_v4_apply, dist_apply]
  unfold distAt
  rw [Ideal.hostUnary_sqrt_def]
  refine congrArg Ideal.sqrt ?_
  show Ideal.ofBits .f32 0x00000000#32 + _ = _
  rw [Ideal.ofBits_zero_f32, zero_add]
  refine Finset.sum_congr rfl fun k _ => ?_
  have e : idx_main_v4 (idx_main_v6 (ix2 i j)) k = ix2 (row i j) k :=
    funext fun a => Fin.ext (by match a with | ⟨0, _⟩ => rfl | ⟨1, _⟩ => rfl)
  rw [e]
  rfl

/-- The reference's result is the loss of the distance matrix under its labels. -/
theorem loss_eq (x0 x1 : (⟨S16384x2048, .f32⟩ : BufTy).Contents (Elt Ideal)) (x2 : (⟨S128, .i32⟩ : BufTy).Contents (Elt Ideal)) :
    val_main_v23 (F := Ideal) x0 x1 x2 = Cert.Loss.loss (F := Ideal) shapeFacts x2 (dist x0 x1) := by
  rw [← dist_eq]
  rfl

end Cert.ReferenceIdeal.RefValue

end
-- ==== Proof.lean ====
/-
  The triplet margin loss over pairwise row distances: a Pallas kernel for the distances against its jnp reference.

  Both programs take two 16384 × 2048 f32 matrices and 128 integer labels and return one number. Both first form the
  128 × 128 matrix of distances dist (i, j) = √( Σ_k (A[128·i + j, k] − B[128·i + j, k] + ε)² ), and both then apply the same
  host operations to it: the same-label mask, the masked row maximum and minimum, the margin, the clamp at zero, the mean.

  The kernel computes the distances on a grid of 16 points. Point t holds row-groups 8t … 8t + 7 of the inputs viewed as
  128 × 128 × 2048 cubes, sums each row's squares 512 lanes at a time onto an accumulator started at zero, and stores the
  square roots as rows 8t … 8t + 7 of the result. The reference sums each flat row's 2048 squares at once and reshapes
  the 16384 roots to 128 × 128. On the extended reals the two sums are one number because addition is commutative and
  associative there (no finiteness is needed, and the precondition is never opened); the two layouts are one matrix
  because cube entry (i, j, k) is flat entry (128·i + j, k). So the two distance matrices are the same function of the
  inputs (Proof/DistSpec.lean's `dist`), and the results are the same loss (Proof/Loss.lean) of it.

  The three frames are the generated frame certificates and the reference's generated run; the idealization rewrote
  nothing, so `preserves` is `True`.
-/
import proofs.«100390_j9337258902044_2_alg».proof.Defs
import proofs.«100390_j9337258902044_2_alg».proof.Proof.Gen.Kernel
import proofs.«100390_j9337258902044_2_alg».proof.Proof.Gen.Kernel.Skeleton
import proofs.«100390_j9337258902044_2_alg».proof.Proof.Gen.Kernel.Launch
import proofs.«100390_j9337258902044_2_alg».proof.Proof.Gen.Kernel.Points
import proofs.«100390_j9337258902044_2_alg».proof.Proof.Gen.Kernel.Frame
import proofs.«100390_j9337258902044_2_alg».proof.Proof.Gen.KernelIdeal
import proofs.«100390_j9337258902044_2_alg».proof.Proof.Gen.KernelIdeal.Skeleton
import proofs.«100390_j9337258902044_2_alg».proof.Proof.Gen.KernelIdeal.Launch
import proofs.«100390_j9337258902044_2_alg».proof.Proof.Gen.KernelIdeal.Points
import proofs.«100390_j9337258902044_2_alg».proof.Proof.Gen.KernelIdeal.Frame
import proofs.«100390_j9337258902044_2_alg».proof.Proof.Gen.ReferenceIdeal
import proofs.«100390_j9337258902044_2_alg».proof.Proof.Gen.ReferenceIdeal.Run
import proofs.«100390_j9337258902044_2_alg».proof.Proof.Gen.ReferenceIdeal.Read
import proofs.«100390_j9337258902044_2_alg».proof.Proof.Gen.Pre_finite_inputs
import proofs.«100390_j9337258902044_2_alg».proof.Proof.KernelLoss
import proofs.«100390_j9337258902044_2_alg».proof.Proof.RefLoss
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From inputs that agree, both idealized programs end at the loss of the one distance matrix of those inputs. -/
theorem algebraic : Cert.algebraic_KernelIdeal_ReferenceIdeal := by
  intro m ρ m' ρ' _ hagree
  refine ⟨_, Cert.KernelIdeal.Row.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.loss_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
